-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S1600000 : Shape := ⟨1, ![1600000]⟩
abbrev S3200000 : Shape := ⟨1, ![3200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1600000 : S_.BroadcastsInDim S1600000 (![] : Fin 0 → Fin S1600000.rank)
  reducesTo_S1600000_S_d0 : S1600000.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  main_v18

def fn {F : FTy → Type} [FloatOps F] (main_arg0 : FVec F S100000x256 .f32) (main_arg1 : FVec F S256x64 .f32) (main_arg2 : FVec F S1600000 .f32) (main_arg3 : FVec F S3200000 .f32) (main_arg4 : IVec S1600000 32) (main_arg5 : IVec S1600000 32) (main_arg6 : IVec S3200000 32) (main_arg7 : IVec S3200000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S3200000 .f32 := Host.absf main_arg3
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_v13 main_v16
-- ==== Kernel.lean ====
abbrev S100000x256 : Shape := ⟨2, ![100000, 256]⟩
abbrev S256x64 : Shape := ⟨2, ![256, 64]⟩
abbrev S1600000 : Shape := ⟨1, ![1600000]⟩
abbrev S3200000 : Shape := ⟨1, ![3200000]⟩
abbrev S100000x64 : Shape := ⟨2, ![100000, 64]⟩
abbrev S5000x256 : Shape := ⟨2, ![5000, 256]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S3200000x1 : Shape := ⟨2, ![3200000, 1]⟩
abbrev S3200000x64 : Shape := ⟨2, ![3200000, 64]⟩
abbrev S100000x192 : Shape := ⟨2, ![100000, 192]⟩

abbrev nBuf : Space → Nat
  | .hbm => 42
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1600000, .f32⟩
  | .hbm, ⟨3, _⟩ => ⟨S3200000, .f32⟩
  | .hbm, ⟨4, _⟩ => ⟨S1600000, .i32⟩
  | .hbm, ⟨5, _⟩ => ⟨S1600000, .i32⟩
  | .hbm, ⟨6, _⟩ => ⟨S3200000, .i32⟩
  | .hbm, ⟨7, _⟩ => ⟨S3200000, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S3200000x1, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x64, .f32⟩
  | .hbm, ⟨35, _⟩ => ⟨S3200000x64, .f32⟩
  | .hbm, ⟨36, _⟩ => ⟨S3200000x64, .f32⟩
  | .hbm, ⟨37, _⟩ => ⟨S_, .f32⟩
  | .hbm, ⟨38, _⟩ => ⟨S100000x64, .f32⟩
  | .hbm, ⟨39, _⟩ => ⟨S3200000x1, .i32⟩
  | .hbm, ⟨40, _⟩ => ⟨S100000x64, .f32⟩
  | .hbm, ⟨41, _⟩ => ⟨S100000x192, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  concatenates_S100000x64_S100000x64_S100000x64_S100000x192_d1 : Shape.Concatenates [S100000x64, S100000x64, S100000x64] S100000x192 1
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S1600000 : Shape := ⟨1, ![1600000]⟩
abbrev S3200000 : Shape := ⟨1, ![3200000]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S3200000x1 : Shape := ⟨2, ![3200000, 1]⟩
abbrev S3200000x64 : Shape := ⟨2, ![3200000, 64]⟩
abbrev S100000x192 : Shape := ⟨2, ![100000, 192]⟩

abbrev nBuf : Space → Nat
  | .hbm => 42
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1600000, .f32⟩
  | .hbm, ⟨3, _⟩ => ⟨S3200000, .f32⟩
  | .hbm, ⟨4, _⟩ => ⟨S1600000, .i32⟩
  | .hbm, ⟨5, _⟩ => ⟨S1600000, .i32⟩
  | .hbm, ⟨6, _⟩ => ⟨S3200000, .i32⟩
  | .hbm, ⟨7, _⟩ => ⟨S3200000, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S3200000x1, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x64, .f32⟩
  | .hbm, ⟨35, _⟩ => ⟨S3200000x64, .f32⟩
  | .hbm, ⟨36, _⟩ => ⟨S3200000x64, .f32⟩
  | .hbm, ⟨37, _⟩ => ⟨S_, .f32⟩
  | .hbm, ⟨38, _⟩ => ⟨S100000x64, .f32⟩
  | .hbm, ⟨39, _⟩ => ⟨S3200000x1, .i32⟩
  | .hbm, ⟨40, _⟩ => ⟨S100000x64, .f32⟩
  | .hbm, ⟨41, _⟩ => ⟨S100000x192, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  concatenates_S100000x64_S100000x64_S100000x64_S100000x192_d1 : Shape.Concatenates [S100000x64, S100000x64, S100000x64] S100000x192 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelFrame.lean ====
/-
  The frame of the program: one tiled matrix product computed by a pipeline of twenty grid points, followed by a
  straight line of host operations (two sparse aggregations and a join of three arrays along the columns).

  At grid point `t` the pipeline hands the body a block of 5000 rows of the left operand, the whole right operand and a
  staging buffer for 5000 rows of the result. The body loads both inputs, multiplies them into a zero accumulator and
  stores the product over the whole staging buffer; nothing else is touched. So after the body each input buffer still
  holds its block, and the output buffer holds the product of the two blocks. With that as proof data the run of the
  region terminates with every input array unchanged and the result array overwritten block by block; the host
  operations that follow read the result and the remaining arguments and write only buffers of their own, so every
  argument array ends as it started.
-/
import proofs.«108582_j15633680958306_1_alg».proof.Proof.Gen.Kernel.Launch
import proofs.«108582_j15633680958306_1_alg».proof.Proof.Gen.Kernel.Skeleton
import proofs.«108582_j15633680958306_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: no host operation precedes it, so they are the launch contents. -/
abbrev V0 (c : Dev nD) : Valuation τ sig (Elt F) := StableHlo.after (List.flatten []) (fun b => m (c, b))
/-- The same read at a reference of the core. -/
abbrev V (c : Dev nD) (b : Ref sig .tc) : Buf (Elt F) ((c : Thread nD τ).loc b) := V0 m c (Proc.devRef .tc b)

/-- The host operations after the region allocate nothing. -/
theorem tail_fresh : (hostOps1 : List (HloOp τ sig (Elt F))).Forall fun op => op.fresh = ∅ := by
  simp only [List.Forall]; repeat' constructor

/-- The program is its region continued by the host operations that follow it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later operations touch only the pipeline's arrays and the buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop

/-- No later operation writes a given buffer that is none of their result buffers. -/
theorem tail_writes_ne (b : Ref sig .tc)
    (hb : b ≠ main_v1 ∧ b ≠ main_c ∧ b ≠ main_v2 ∧ b ≠ main_v3 ∧ b ≠ main_c_0 ∧ b ≠ main_v4 ∧ b ≠ main_v5 ∧ b ≠ main_v6
      ∧ b ≠ main_v7 ∧ b ≠ main_v8 ∧ b ≠ main_v9 ∧ b ≠ main_v10 ∧ b ≠ main_cst ∧ b ≠ main_v11 ∧ b ≠ main_v12 ∧ b ≠ main_v13
      ∧ b ≠ main_v14 ∧ b ≠ main_c_1 ∧ b ≠ main_v15 ∧ b ≠ main_v16 ∧ b ≠ main_c_2 ∧ b ≠ main_v17 ∧ b ≠ main_v18 ∧ b ≠ main_v19
      ∧ b ≠ main_v20 ∧ b ≠ main_v21 ∧ b ≠ main_v22 ∧ b ≠ main_v23 ∧ b ≠ main_cst_3 ∧ b ≠ main_v24 ∧ b ≠ main_v25 ∧ b ≠ main_v26
      ∧ b ≠ main_v27) :
    ∀ op ∈ (hostOps1 : List (HloOp τ sig (Elt F))), Proc.devRef .tc b ∉ op.writes := by
  obtain ⟨h1, h2, h3, h4, h5, h6, h7, h8, h9, h10, h11, h12, h13, h14, h15, h16, h17, h18, h19, h20, h21, h22, h23, h24, h25,
    h26, h27, h28, h29, h30, h31, h32, h33⟩ := hb
  refine List.forall_iff_forall_mem.mp ?_
  simp only [hostOps1, List.Forall, StableHlo.nullary_writes, StableHlo.unary_writes, StableHlo.binary_writes,
    StableHlo.ternary_writes, StableHlo.nary_writes, Finset.mem_singleton]
  repeat' apply And.intro
  all_goals exact StableHlo.devRef_ne_of_ne (by assumption)

/-- They write no array of the pipeline: each writes its own result buffer, which is none of the three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  fin_cases w
  · exact tail_writes_ne main_arg0 (by decide)
  · exact tail_writes_ne main_arg1 (by decide)
  · exact tail_writes_ne main_v0 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block of rows at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The right operand's staging buffer holds the whole operand at every point, though it is fetched only once: its
    block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

/-- What the body leaves in the result's staging buffer, from the two input blocks: its one store, of the product. -/
def out0_2 (x0 : Vec F S5000x256 .f32) (x1 : Vec F S256x64 .f32) : Vec F S5000x64 .f32 :=
  View.canon [⟨r0_2, k0_pay1 (View.ld x0 r0_0) (View.ld x1 r0_1)⟩]

/-- The one store covers the whole buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
/-- The body on whole staging buffers, the inputs at `x0`, `x1` and the output at anything, runs to the continuation
    with the inputs as they were and the output at `out0_2 x0 x1`. -/
theorem sound_kernel (c : Dev nD) (E : Set ℕ) (i : grid0.Coords) (arg1 : Memref sig .tc .vmem S5000x256 .f32) (harg1 : arg1.IsWhole) (arg2 : Memref sig .tc .vmem S256x64 .f32) (harg2 : arg2.IsWhole) (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the pipeline on core `c`: the arrays as the region finds them; after the body at point `t` each
    input's buffer at its block and the output's at the product of the blocks; the invariant the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; every final state has each array of the pipeline at what
    the write-backs leave and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-! ## The argument arrays at the end -/

/-- A buffer that no window stages and no later operation writes ends as launched. -/
theorem tail_kept (c : Dev nD) (b : Ref sig .tc) (harr : ∀ w, Pipeline.arrRef spec0 w ≠ b)
    (hw : ∀ op ∈ (hostOps1 : List (HloOp τ sig (Elt F))), Proc.devRef .tc b ∉ op.writes) :
    Pipeline.afterTail₀ cfgs (dats m) 0 (V0 m) [hostOps1] c b = m ((c : Thread nD τ).loc b) := by
  unfold Pipeline.afterTail₀
  rw [StableHlo.after_of_forall_not_mem (b := Proc.devRef .tc b) _ _ (by
      simpa only [List.flatten_cons, List.flatten_nil, List.append_nil] using hw),
    Pipeline.withArrays_of_ne _ c (V0 m c) _ b harr]
  rfl

/-- In a final state of the run every argument array holds its launch contents: the two the pipeline stages are inputs,
    never written back; the other six bypass the region and no later operation writes them. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
    ⟨((h c).1 0).trans (((dats m 0 c).arrAt_in 0 rfl _).trans (A_eq m c 0)),
     ((h c).1 1).trans (((dats m 0 c).arrAt_in 1 rfl _).trans (A_eq m c 1)),
     ((h c).2 main_arg2 (Pipeline.mem_restRefs_of main_arg2 (by decide) (by decide))).trans
       (tail_kept m c main_arg2 (by decide) (tail_writes_ne main_arg2 (by decide))),
     ((h c).2 main_arg3 (Pipeline.mem_restRefs_of main_arg3 (by decide) (by decide))).trans
       (tail_kept m c main_arg3 (by decide) (tail_writes_ne main_arg3 (by decide))),
     ((h c).2 main_arg4 (Pipeline.mem_restRefs_of main_arg4 (by decide) (by decide))).trans
       (tail_kept m c main_arg4 (by decide) (tail_writes_ne main_arg4 (by decide))),
     ((h c).2 main_arg5 (Pipeline.mem_restRefs_of main_arg5 (by decide) (by decide))).trans
       (tail_kept m c main_arg5 (by decide) (tail_writes_ne main_arg5 (by decide))),
     ((h c).2 main_arg6 (Pipeline.mem_restRefs_of main_arg6 (by decide) (by decide))).trans
       (tail_kept m c main_arg6 (by decide) (tail_writes_ne main_arg6 (by decide))),
     ((h c).2 main_arg7 (Pipeline.mem_restRefs_of main_arg7 (by decide) (by decide))).trans
       (tail_kept m c main_arg7 (by decide) (tail_writes_ne main_arg7 (by decide)))⟩

/-- THE FRAME: every execution terminates without a fault and all eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept m r h c) (run_main m ρ)

end Cert.Kernel.Frame

end
-- ==== Proof.KernelIdealFrame.lean ====
/-
  The frame of the program: one tiled matrix product computed by a pipeline of twenty grid points, followed by a
  straight line of host operations (two sparse aggregations and a join of three arrays along the columns).

  At grid point `t` the pipeline hands the body a block of 5000 rows of the left operand, the whole right operand and a
  staging buffer for 5000 rows of the result. The body loads both inputs, multiplies them into a zero accumulator and
  stores the product over the whole staging buffer; nothing else is touched. So after the body each input buffer still
  holds its block, and the output buffer holds the product of the two blocks. With that as proof data the run of the
  region terminates with every input array unchanged and the result array overwritten block by block; the host
  operations that follow read the result and the remaining arguments and write only buffers of their own, so every
  argument array ends as it started.
-/
import proofs.«108582_j15633680958306_1_alg».proof.Proof.Gen.KernelIdeal.Launch
import proofs.«108582_j15633680958306_1_alg».proof.Proof.Gen.KernelIdeal.Skeleton
import proofs.«108582_j15633680958306_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: no host operation precedes it, so they are the launch contents. -/
abbrev V0 (c : Dev nD) : Valuation τ sig (Elt F) := StableHlo.after (List.flatten []) (fun b => m (c, b))
/-- The same read at a reference of the core. -/
abbrev V (c : Dev nD) (b : Ref sig .tc) : Buf (Elt F) ((c : Thread nD τ).loc b) := V0 m c (Proc.devRef .tc b)

/-- The host operations after the region allocate nothing. -/
theorem tail_fresh : (hostOps1 : List (HloOp τ sig (Elt F))).Forall fun op => op.fresh = ∅ := by
  simp only [List.Forall]; repeat' constructor

/-- The program is its region continued by the host operations that follow it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later operations touch only the pipeline's arrays and the buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop

/-- No later operation writes a given buffer that is none of their result buffers. -/
theorem tail_writes_ne (b : Ref sig .tc)
    (hb : b ≠ main_v1 ∧ b ≠ main_c ∧ b ≠ main_v2 ∧ b ≠ main_v3 ∧ b ≠ main_c_0 ∧ b ≠ main_v4 ∧ b ≠ main_v5 ∧ b ≠ main_v6
      ∧ b ≠ main_v7 ∧ b ≠ main_v8 ∧ b ≠ main_v9 ∧ b ≠ main_v10 ∧ b ≠ main_cst ∧ b ≠ main_v11 ∧ b ≠ main_v12 ∧ b ≠ main_v13
      ∧ b ≠ main_v14 ∧ b ≠ main_c_1 ∧ b ≠ main_v15 ∧ b ≠ main_v16 ∧ b ≠ main_c_2 ∧ b ≠ main_v17 ∧ b ≠ main_v18 ∧ b ≠ main_v19
      ∧ b ≠ main_v20 ∧ b ≠ main_v21 ∧ b ≠ main_v22 ∧ b ≠ main_v23 ∧ b ≠ main_cst_3 ∧ b ≠ main_v24 ∧ b ≠ main_v25 ∧ b ≠ main_v26
      ∧ b ≠ main_v27) :
    ∀ op ∈ (hostOps1 : List (HloOp τ sig (Elt F))), Proc.devRef .tc b ∉ op.writes := by
  obtain ⟨h1, h2, h3, h4, h5, h6, h7, h8, h9, h10, h11, h12, h13, h14, h15, h16, h17, h18, h19, h20, h21, h22, h23, h24, h25,
    h26, h27, h28, h29, h30, h31, h32, h33⟩ := hb
  refine List.forall_iff_forall_mem.mp ?_
  simp only [hostOps1, List.Forall, StableHlo.nullary_writes, StableHlo.unary_writes, StableHlo.binary_writes,
    StableHlo.ternary_writes, StableHlo.nary_writes, Finset.mem_singleton]
  repeat' apply And.intro
  all_goals exact StableHlo.devRef_ne_of_ne (by assumption)

/-- They write no array of the pipeline: each writes its own result buffer, which is none of the three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  fin_cases w
  · exact tail_writes_ne main_arg0 (by decide)
  · exact tail_writes_ne main_arg1 (by decide)
  · exact tail_writes_ne main_v0 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block of rows at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The right operand's staging buffer holds the whole operand at every point, though it is fetched only once: its
    block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S5000x64 := Rect.unit (s := S5000x64) ![0, 0] S5000x64.size inb_S5000x64_S5000x64_0_0

/-- What the body leaves in the result's staging buffer, from the two input blocks: its one store, of the product. -/
def out0_2 (x0 : Vec F S5000x256 .f32) (x1 : Vec F S256x64 .f32) : Vec F S5000x64 .f32 :=
  View.canon [⟨r0_2, k0_pay1 (View.ld x0 r0_0) (View.ld x1 r0_1)⟩]

/-- The one store covers the whole buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
/-- The body on whole staging buffers, the inputs at `x0`, `x1` and the output at anything, runs to the continuation
    with the inputs as they were and the output at `out0_2 x0 x1`. -/
theorem sound_kernel (c : Dev nD) (E : Set ℕ) (i : grid0.Coords) (arg1 : Memref sig .tc .vmem S5000x256 .f32) (harg1 : arg1.IsWhole) (arg2 : Memref sig .tc .vmem S256x64 .f32) (harg2 : arg2.IsWhole) (arg3 : Memref sig .tc .vmem S5000x64 .f32) (harg3 : arg3.IsWhole)
    (x0 : Vec F S5000x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the pipeline on core `c`: the arrays as the region finds them; after the body at point `t` each
    input's buffer at its block and the output's at the product of the blocks; the invariant the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; every final state has each array of the pipeline at what
    the write-backs leave and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-! ## The argument arrays at the end -/

/-- A buffer that no window stages and no later operation writes ends as launched. -/
theorem tail_kept (c : Dev nD) (b : Ref sig .tc) (harr : ∀ w, Pipeline.arrRef spec0 w ≠ b)
    (hw : ∀ op ∈ (hostOps1 : List (HloOp τ sig (Elt F))), Proc.devRef .tc b ∉ op.writes) :
    Pipeline.afterTail₀ cfgs (dats m) 0 (V0 m) [hostOps1] c b = m ((c : Thread nD τ).loc b) := by
  unfold Pipeline.afterTail₀
  rw [StableHlo.after_of_forall_not_mem (b := Proc.devRef .tc b) _ _ (by
      simpa only [List.flatten_cons, List.flatten_nil, List.append_nil] using hw),
    Pipeline.withArrays_of_ne _ c (V0 m c) _ b harr]
  rfl

/-- In a final state of the run every argument array holds its launch contents: the two the pipeline stages are inputs,
    never written back; the other six bypass the region and no later operation writes them. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
    ⟨((h c).1 0).trans (((dats m 0 c).arrAt_in 0 rfl _).trans (A_eq m c 0)),
     ((h c).1 1).trans (((dats m 0 c).arrAt_in 1 rfl _).trans (A_eq m c 1)),
     ((h c).2 main_arg2 (Pipeline.mem_restRefs_of main_arg2 (by decide) (by decide))).trans
       (tail_kept m c main_arg2 (by decide) (tail_writes_ne main_arg2 (by decide))),
     ((h c).2 main_arg3 (Pipeline.mem_restRefs_of main_arg3 (by decide) (by decide))).trans
       (tail_kept m c main_arg3 (by decide) (tail_writes_ne main_arg3 (by decide))),
     ((h c).2 main_arg4 (Pipeline.mem_restRefs_of main_arg4 (by decide) (by decide))).trans
       (tail_kept m c main_arg4 (by decide) (tail_writes_ne main_arg4 (by decide))),
     ((h c).2 main_arg5 (Pipeline.mem_restRefs_of main_arg5 (by decide) (by decide))).trans
       (tail_kept m c main_arg5 (by decide) (tail_writes_ne main_arg5 (by decide))),
     ((h c).2 main_arg6 (Pipeline.mem_restRefs_of main_arg6 (by decide) (by decide))).trans
       (tail_kept m c main_arg6 (by decide) (tail_writes_ne main_arg6 (by decide))),
     ((h c).2 main_arg7 (Pipeline.mem_restRefs_of main_arg7 (by decide) (by decide))).trans
       (tail_kept m c main_arg7 (by decide) (tail_writes_ne main_arg7 (by decide)))⟩

/-- THE FRAME: every execution terminates without a fault and all eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept m r h c) (run_main m ρ)

end Cert.KernelIdeal.Frame

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.KernelValue.lean ====
/-
  What the result array of the tiled product holds after the run, on the extended reals.

  Grid point `t` multiplies rows `5000·t … 5000·t + 4999` of the left operand by the whole right operand and writes
  the 5000 × 64 product back as rows `5000·t … 5000·t + 4999` of the result. A row of a product depends only on the
  same row of the left operand, so each written block is the same block of the product of the WHOLE operands; the
  twenty blocks tile the 100000 rows, so the result array ends as that whole product, entry `(a, b)` being
  `∑ k, x[a,k] · W[k,b]`. The change of float format applied to both operands before the product is the identity on
  the extended reals.
-/
import proofs.«108582_j15633680958306_1_alg».proof.Proof.KernelIdealFrame
import proofs.«108582_j15633680958306_1_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Product

open Cert.KernelIdeal Cert.KernelIdeal.Gen Cert.KernelIdeal.Frame Cert.Lib.PlainDot Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The body's dimension numbers are those of a plain product of a 5000 × 256 by a 256 × 64 array. -/
theorem dims_plain : dot_S5000x256_S256x64_S5000x64_1_0_0_1_n_n = DotDims.plain 5000 256 64 := rfl

/-- The body's stored value is the product of its two loaded blocks. -/
theorem pay_eq (x0 : Vec Ideal S5000x256 .f32) (x1 : Vec Ideal S256x64 .f32) :
    k0_pay1 (F := Ideal) x0 x1 = rowsByCols x0 x1 := by
  unfold k0_pay1
  exact matmul_zero_eq _ dims_plain none _ _

/-- The whole product of the argument arrays as the region finds them. -/
abbrev product (c : Dev nD) : S100000x64.Idx → EReal :=
  rowsByCols (M := 100000) (K := 256) (N := 64) (V m c main_arg0) (V m c main_arg1)

/-- Where each window's block sits at point `t`: the left operand's and the result's at block row `t`, column block 0;
    the right operand's at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero hz]
  simp only [View.ld_unit_zero (S := S5000x256) hz, View.ld_unit_zero (S := S256x64) hz]
  rw [pay_eq]
  obtain ⟨e0, e1, e2, e3, e4, e5⟩ := idx_facts t
  funext j
  show rowsByCols (iblk m c 0 t) (iblk m c 1 t) j = product m c (((cfg0.win 2).blk t).view.emb j)
  refine rowsByCols_congr (V m c main_arg0) (V m c main_arg1) (iblk m c 0 t) (iblk m c 1 t) j _ (fun k => ?_) (fun k => ?_)
  · show V m c main_arg0 (((cfg0.win 0).blk t).view.emb (ix2 (j 0) k)) = V m c main_arg0 (ix2 ((((cfg0.win 2).blk t).view.emb j) 0) k)
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V m c main_arg1 (((cfg0.win 1).blk t).view.emb (ix2 k (j 1))) = V m c main_arg1 (ix2 k ((((cfg0.win 2).blk t).view.emb j) 1))
    congr 1
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega

/-- An index of the result array lies in point `t`'s block iff each coordinate lies in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every index of the result array is written by some point: row `r` by point `r / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the run is the whole product of the two argument arrays. -/
theorem final (c : Dev nD) : (dats m 0 c).arrAt 2 cfg0.N = product m c :=
  (dats m 0 c).arrAt_eq_of_cover 2 (product m c) (fun t _ => flushed_eq m c t) cover

end Cert.KernelIdeal.Product

end
-- ==== Proof.RefTail.lean ====
/-
  The reference program as one function of its arguments, on the extended reals.

  The reference computes the dense product `h0 = x · W` and then the same straight line of host operations the
  kernel's program runs after its tiled product: for each of the two edge lists, the rows of `h0` named by the source
  indices (a negative index counted from the end) are scaled by the edge values and added into the rows named by the
  target indices of a zero array; the product and the two aggregations are then joined along the columns. `joined`
  names that line as one function of the product and of the six remaining arguments, so that two programs that feed it
  the same product are compared without opening it. The dense product itself has entry `(a, b)` equal to
  `∑ k, x[a,k] · W[k,b]`.
-/
import proofs.«108582_j15633680958306_1_alg».proof.Proof.Gen.ReferenceIdeal.Run
import proofs.«108582_j15633680958306_1_alg».proof.Proof.LibPlainDot

noncomputable section

namespace Cert.ReferenceIdeal.After

open Cert.ReferenceIdeal Cert.ReferenceIdeal.Gen Idealize.ShloMosaic Cert.Lib.PlainDot

variable {F : FTy → Type} [FloatOps F]

/-- The host operations after the product: the two sparse aggregations of `h0` and the join of `h0` with them along
    the columns, as a function of `h0`, the edge values `a2`, `a3`, and the edge indices `a4 … a7`. -/
def joined (h0 : (⟨S100000x64, .f32⟩ : BufTy).Contents (Elt F))
    (a2 : (⟨S1600000, .f32⟩ : BufTy).Contents (Elt F)) (a3 : (⟨S3200000, .f32⟩ : BufTy).Contents (Elt F))
    (a4 a5 : (⟨S1600000, .i32⟩ : BufTy).Contents (Elt F)) (a6 a7 : (⟨S3200000, .i32⟩ : BufTy).Contents (Elt F)) :
    (⟨S100000x192, .f32⟩ : BufTy).Contents (Elt F) :=
  concatenate S100000x192 1 [⟨S100000x64, h0⟩, ⟨S100000x64, (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a5) (mulf (broadcastInDim S1600000x64 ![0, 1] bcast_S1600000x1_S1600000x64_0_1 (broadcastInDim S1600000x1 ![0] bcast_S1600000_S1600000x1_0 a2)) (Host.gather gather_S100000x64_S1600000x1_S1600000x64_1_0_n_n_0_1_164 h0 (broadcastInDim S1600000x1 ![0] bcast_S1600000_S1600000x1_0 (select (cmpi .slt a4 (broadcastInDim S1600000 ![] bcast_S_S1600000 (constantI S_ 32 0#32))) (addi a4 (broadcastInDim S1600000 ![] bcast_S_S1600000 (constantI S_ 32 100000#32))) a4)))))⟩, ⟨S100000x64, (Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 a7) (mulf (broadcastInDim S3200000x64 ![0, 1] bcast_S3200000x1_S3200000x64_0_1 (broadcastInDim S3200000x1 ![0] bcast_S3200000_S3200000x1_0 a3)) (Host.gather gather_S100000x64_S3200000x1_S3200000x64_1_0_n_n_0_1_164 h0 (broadcastInDim S3200000x1 ![0] bcast_S3200000_S3200000x1_0 (select (cmpi .slt a6 (broadcastInDim S3200000 ![] bcast_S_S3200000 (constantI S_ 32 0#32))) (addi a6 (broadcastInDim S3200000 ![] bcast_S_S3200000 (constantI S_ 32 100000#32))) a6)))))⟩] concatenates_S100000x64_S100000x64_S100000x64_S100000x192_d1

/-- The reference's composed term is `joined` of its dense product. -/
theorem ref_term (a0 : (⟨S100000x256, .f32⟩ : BufTy).Contents (Elt F)) (a1 : (⟨S256x64, .f32⟩ : BufTy).Contents (Elt F))
    (a2 : (⟨S1600000, .f32⟩ : BufTy).Contents (Elt F)) (a3 : (⟨S3200000, .f32⟩ : BufTy).Contents (Elt F))
    (a4 a5 : (⟨S1600000, .i32⟩ : BufTy).Contents (Elt F)) (a6 a7 : (⟨S3200000, .i32⟩ : BufTy).Contents (Elt F)) :
    concatenate S100000x192 1 [⟨S100000x64, (Host.dotGeneral dot_S100000x256_S256x64_S100000x64_1_0_0_1_n_n none a0 a1)⟩, ⟨S100000x64, (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a5) (mulf (broadcastInDim S1600000x64 ![0, 1] bcast_S1600000x1_S1600000x64_0_1 (broadcastInDim S1600000x1 ![0] bcast_S1600000_S1600000x1_0 a2)) (Host.gather gather_S100000x64_S1600000x1_S1600000x64_1_0_n_n_0_1_164 (Host.dotGeneral dot_S100000x256_S256x64_S100000x64_1_0_0_1_n_n none a0 a1) (broadcastInDim S1600000x1 ![0] bcast_S1600000_S1600000x1_0 (select (cmpi .slt a4 (broadcastInDim S1600000 ![] bcast_S_S1600000 (constantI S_ 32 0#32))) (addi a4 (broadcastInDim S1600000 ![] bcast_S_S1600000 (constantI S_ 32 100000#32))) a4)))))⟩, ⟨S100000x64, (Host.scatterAdd scatter_S100000x64_S3200000x1_S3200000x64_1_0_0_1 (broadcastInDim S100000x64 ![] bcast_S_S100000x64 (constant S_ .f32 0x00000000#32)) (broadcastInDim S3200000x1 ![0] bcast_S3200000_S3200000x1_0 a7) (mulf (broadcastInDim S3200000x64 ![0, 1] bcast_S3200000x1_S3200000x64_0_1 (broadcastInDim S3200000x1 ![0] bcast_S3200000_S3200000x1_0 a3)) (Host.gather gather_S100000x64_S3200000x1_S3200000x64_1_0_n_n_0_1_164 (Host.dotGeneral dot_S100000x256_S256x64_S100000x64_1_0_0_1_n_n none a0 a1) (broadcastInDim S3200000x1 ![0] bcast_S3200000_S3200000x1_0 (select (cmpi .slt a6 (broadcastInDim S3200000 ![] bcast_S_S3200000 (constantI S_ 32 0#32))) (addi a6 (broadcastInDim S3200000 ![] bcast_S_S3200000 (constantI S_ 32 100000#32))) a6)))))⟩] concatenates_S100000x64_S100000x64_S100000x64_S100000x192_d1
      = joined (Host.dotGeneral dot_S100000x256_S256x64_S100000x64_1_0_0_1_n_n none a0 a1) a2 a3 a4 a5 a6 a7 := rfl

/-- The reference's dense product on the extended reals: entry `(a, b)` is `∑ k, x[a,k] · W[k,b]`. -/
theorem ref_product (a0 : (⟨S100000x256, .f32⟩ : BufTy).Contents (Elt Ideal)) (a1 : (⟨S256x64, .f32⟩ : BufTy).Contents (Elt Ideal)) :
    Host.dotGeneral (F := Ideal) (φ₁ := .f32) (φ₂ := .f32) dot_S100000x256_S256x64_S100000x64_1_0_0_1_n_n none a0 a1
      = rowsByCols (M := 100000) (K := 256) (N := 64) a0 a1 :=
  dotGeneral_eq (φ₁ := .f32) (φ₂ := .f32) dot_S100000x256_S256x64_S100000x64_1_0_0_1_n_n rfl none .single a0 a1

end Cert.ReferenceIdeal.After

end
-- ==== Proof.LibNaryThree.lean ====
/-
  An operation on a family of THREE buffers, read with each operand at its own buffer.

  A host operation that takes its operands through a family indexed by position (a join of several arrays along
  an axis) has as its value the operation's function applied to the family `k ↦ contents of operand k`. For a
  family of three given as a literal, that family is the three operands' contents one after the other. Stated
  with the function applied LAST (`feed x f = f x`, kept folded), a rewriting pass can go on reading each
  operand's own contents below the join before the join's function is opened — which it cannot do once the
  function is applied, when the function (a concatenation) carries a proof about the shapes of what it joins.
-/
import Idealize.ShloMosaic.Lib.StableHlo.Run

noncomputable section

namespace Cert.LibNaryThree

open Idealize.ShloMosaic Idealize.ShloMosaic.TcCoe Idealize.ShloMosaic.StableHlo

/-- A value handed to a function: `feed x f` is `f x`, kept folded so that `x` can be rewritten first.
    Unfold it (or close by `rfl`) once the operands have been read. -/
def feed {α β : Type} (x : α) (f : α → β) : β := f x

variable {τ : Topo} {sig : RefSig} {Val : EltTy → Type} {x a b y : Ref sig .tc}

/-- **An operation on a literal family of three buffers**: its result buffer after the operation holds the
    operation's function of the three operands' contents, each read at its own buffer (the three-operand
    companion of the four-operand form; the result buffer is un-indexed so that a simplifier finds the
    lemma from the operation alone). Use it in a `simp only` set with the other result lemmas in place of the
    generic family form, then close with `rfl`. -/
theorem nary3_feed
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = feed (Fin.cons (F (Proc.devRef .tc x)) (Fin.cons (F (Proc.devRef .tc a)) (Fin.cons (F (Proc.devRef .tc b)) (fun i => i.elim0)))) f := by
  unfold feed
  rw [nary_result]; congr 1; funext k; fin_cases k <;> rfl

end Cert.LibNaryThree

end
-- ==== Proof.KernelTail.lean ====
/-
  The result of the kernel's program on the extended reals.

  After the tiled product the program runs a straight line of host operations that read the product's array and six
  argument arrays and write buffers of their own, the last being the program's result. Whatever the buffers hold when
  that line starts, the result is the line's function `joined` of the contents of those seven buffers. When the line
  starts, the product's array holds the whole product `x · W` (every block written back) and the six arguments hold
  their launch contents; so the program's result is `joined (x · W)` of the arguments.
-/
import proofs.«108582_j15633680958306_1_alg».proof.Proof.KernelValue
import proofs.«108582_j15633680958306_1_alg».proof.Proof.RefTail
import proofs.«108582_j15633680958306_1_alg».proof.Proof.LibNaryThree
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Frame Cert.KernelIdeal.Product Idealize.ShloMosaic.StableHlo
open Cert.LibNaryThree Cert.Lib.PlainDot
open Cert.ReferenceIdeal.After (joined)

/-- The host operations after the region, started from any contents `W` of the buffers, leave in the result buffer
    `joined` of `W` at the product's array and at the six arguments they read. -/
theorem after_tail {F : FTy → Type} [FloatOps F] (W : Valuation τ sig (Elt F)) :
    StableHlo.after (hostOps1 : List (HloOp τ sig (Elt F))) W (Proc.devRef .tc main_v27)
      = joined (W (Proc.devRef .tc main_v0)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  simp (disch := decide) only [hostOps1, after_cons, after_nil, nullary_result', unary_result', binary_result', ternary_result',
    nary3_feed, nullary_result_ne', unary_result_ne', binary_result_ne', ternary_result_ne', nary_result_ne']
  rfl

variable (m : (ℓ : Loc nD τ sig) → Buf (Elt Ideal) ℓ) (ρ : Dev nD → PrngReg)

/-- The program's result after the run: `joined` of the whole product and the six remaining arguments. -/
theorem result_eq (c : Dev nD) :
    Pipeline.afterTail₀ cfgs (dats m) 0 (V0 m) [hostOps1] c main_v27
      = joined (rowsByCols (M := 100000) (K := 256) (N := 64) (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v27) = _
  rw [after_tail]
  rw [show Pipeline.withArrays spec0 c (V0 m c) (fun w => (dats m 0 c).arrAt w cfg0.N) (Proc.devRef .tc main_v0) = product m c from
        (Pipeline.withArrays_arr spec0 launch0.win.arr_inj c _ _ 2).trans (final m c)]
  rw [Pipeline.withArrays_of_ne _ c (V0 m c) _ main_arg2 (by decide), Pipeline.withArrays_of_ne _ c (V0 m c) _ main_arg3 (by decide),
    Pipeline.withArrays_of_ne _ c (V0 m c) _ main_arg4 (by decide), Pipeline.withArrays_of_ne _ c (V0 m c) _ main_arg5 (by decide),
    Pipeline.withArrays_of_ne _ c (V0 m c) _ main_arg6 (by decide), Pipeline.withArrays_of_ne _ c (V0 m c) _ main_arg7 (by decide)]
  rfl

/-- The run of the kernel's program, read: the result at `joined (x · W)` of the arguments, the arguments unchanged. -/
theorem run : θ_run defs (onTc (τ := τ) (main (F := Ideal))) ⟨m, fun _ => 0, ρ⟩ (fun r => ∀ c : Dev nD,
      r.2.mem ((c.tc : Thread nD τ).loc main_v27)
        = joined (rowsByCols (M := 100000) (K := 256) (N := 64) (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v27 (Pipeline.mem_restRefs_of main_v27 (by decide) (by decide))).trans (result_eq m c), kept m r h c⟩)
    (run_main m ρ)

end Cert.KernelIdeal.Result

end
-- ==== Proof.lean ====
/-
  A two-hop graph branch: `h0 = x · W`, two sparse aggregations `h1`, `h2` of `h0` over two edge lists, and the three
  joined along the columns. The kernel's program computes `h0` by a pipeline over twenty blocks of 5000 rows, each
  block's product taken on operands cut to a shorter float format; the reference computes `h0` as one dense product.
  Both then run the same straight line of host operations on `h0` and the remaining six arguments.

  On the extended reals the change of float format is the identity and a row block of a product is the product of the
  row block, so the kernel's result array holds the whole product `∑ k, x[a,k] · W[k,b]`, which is also the reference's
  dense product. The later operations are one function (`joined`) of the product and the six arguments on both
  sides, so the two results are equal without opening the aggregations; no finiteness of the inputs is used.

  The three frames: the kernel's program (at the word level and on the extended reals) runs its region to the end with
  the inputs untouched and the later operations write only their own buffers; the reference is a straight line of host
  operations. The idealized kernel is the kernel's own text read on the extended reals (its ledger of rewrites is
  empty), so the conjunct that relates the two is trivial.
-/
import proofs.«108582_j15633680958306_1_alg».proof.Defs
import proofs.«108582_j15633680958306_1_alg».proof.Proof.Gen.Kernel
import proofs.«108582_j15633680958306_1_alg».proof.Proof.Gen.KernelIdeal
import proofs.«108582_j15633680958306_1_alg».proof.Proof.Gen.ReferenceIdeal
import proofs.«108582_j15633680958306_1_alg».proof.Proof.Gen.Pre_finite_inputs
import proofs.«108582_j15633680958306_1_alg».proof.Proof.KernelFrame
import proofs.«108582_j15633680958306_1_alg».proof.Proof.KernelTail
import Idealize.ShloMosaic.Adequacy
import Idealize.ShloMosaic.Init

noncomputable section

namespace Cert.Proof

open Idealize.ShloMosaic Idealize.SL.Sem

/-- The word-level program runs and leaves its eight argument arrays unchanged. -/
theorem frame_k : Cert.frame_Kernel := fun m ρ _ => Cert.Kernel.Frame.frame m ρ

/-- The same for the program read on the extended reals. -/
theorem frame_ki : Cert.frame_KernelIdeal := fun m ρ _ => Cert.KernelIdeal.Frame.frame m ρ

/-- The reference is a straight line of host operations: it runs, and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with `joined (x · W)` of the six remaining arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7, Cert.ReferenceIdeal.After.ref_term, Cert.ReferenceIdeal.After.ref_product]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
